-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn {F : FTy → Type} [FloatOps F] (main_arg0 : FVec F S50000x96 .f32) (main_arg1 : IVec S800000 32) (main_arg2 : IVec S800000 32) (main_arg3 : FVec F S96x96 .f32) (main_arg4 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  main_v13
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩

abbrev nBuf : Space → Nat
  | .hbm => 22
  | .vmem => 8
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x96, .f32⟩
  | .hbm, ⟨14, _⟩ => ⟨S_, .f32⟩
  | .hbm, ⟨15, _⟩ => ⟨S50000x96, .f32⟩
  | .hbm, ⟨16, _⟩ => ⟨S800000x1, .i32⟩
  | .hbm, ⟨17, _⟩ => ⟨S50000x96, .f32⟩
  | .hbm, ⟨18, _⟩ => ⟨S96x96, .f32⟩
  | .hbm, ⟨19, _⟩ => ⟨S96x96, .bf16⟩
  | .hbm, ⟨20, _⟩ => ⟨S1x96, .f32⟩
  | .hbm, ⟨21, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .bf16⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S96x96_S96x96_1_0 : S96x96.Transposes [1, 0] S96x96
  bitsLt_bf16_f32 : FTy.bits .bf16 < FTy.bits .f32
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 27
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x96, .f32⟩
  | .hbm, ⟨14, _⟩ => ⟨S_, .f32⟩
  | .hbm, ⟨15, _⟩ => ⟨S50000x96, .f32⟩
  | .hbm, ⟨16, _⟩ => ⟨S800000x1, .i32⟩
  | .hbm, ⟨17, _⟩ => ⟨S50000x96, .f32⟩
  | .hbm, ⟨18, _⟩ => ⟨S_, .f32⟩
  | .hbm, ⟨19, _⟩ => ⟨S50000x96, .f32⟩
  | .hbm, ⟨20, _⟩ => ⟨S50000x96, .f32⟩
  | .hbm, ⟨21, _⟩ => ⟨S50000x96, .f32⟩
  | .hbm, ⟨22, _⟩ => ⟨S96x96, .f32⟩
  | .hbm, ⟨23, _⟩ => ⟨S50000x96, .f32⟩
  | .hbm, ⟨24, _⟩ => ⟨S1x96, .f32⟩
  | .hbm, ⟨25, _⟩ => ⟨S50000x96, .f32⟩
  | .hbm, ⟨26, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The node update of one message-passing layer, as ONE function of whole arrays.

  For node features `h : [50000, 96]`, aggregated neighbour features `a : [50000, 96]` (row `i` of `a` is the sum, over
  the edges arriving at node `i`, of the source nodes' feature rows), a weight matrix already transposed
  `wt : [96, 96]` (`wt[k, j] = W[j, k]`) and a bias row `b : [1, 96]`, the layer computes, at node `i` and output feature `j`,

      out[i, j] = Σ_k (h[i, k] + a[i, k] · π₃₂) · wt[k, j]  +  b[0, j]

  where `π₃₂` is the single-precision number nearest to π, read as the exact real its bit pattern denotes. Every sum and
  product is taken on the extended reals; no law beyond commutativity of the product is used anywhere, so nothing here
  needs the entries to be finite.
-/
import Idealize.ShloMosaic.PureOps.Ideal
import Idealize.ShloMosaic.Lib.ValueIdx

noncomputable section

namespace Cert.NodeUpdate

open Idealize.ShloMosaic Idealize.ShloMosaic.ValueIdx

/-- The single-precision number nearest to π, as the exact real its bit pattern denotes. Both programs spell the same
    pattern, so its numerical value is never needed. -/
def pi32 : EReal := Ideal.ofBits .f32 0x40490FDB#32

/-- The residual-combined feature `k` of node `i`: the node's own feature plus π₃₂ times what its mailbox summed. -/
def combined (h a : (⟨2, ![50000, 96]⟩ : Shape).Idx → EReal) (i : Fin 50000) (k : Fin 96) : EReal :=
  h (ix2 i k) + a (ix2 i k) * pi32

/-- The weight matrix transposed: `wt[k, j] = W[j, k]`. -/
def transposed (W : (⟨2, ![96, 96]⟩ : Shape).Idx → EReal) : (⟨2, ![96, 96]⟩ : Shape).Idx → EReal :=
  fun z => W (ix2 (z 1) (z 0))

/-- The bias vector laid out as a matrix of one row. -/
def biasRow (b : (⟨1, ![96]⟩ : Shape).Idx → EReal) : (⟨2, ![1, 96]⟩ : Shape).Idx → EReal :=
  fun z => b (ix1 (z 1))

/-- The layer's output: the combined features through the linear map `wt`, plus the bias row. With `wt = transposed W`
    and the bias row `biasRow b` this is `out[i, j] = Σ_k (h[i, k] + a[i, k] · π₃₂) · W[j, k] + b[j]`. -/
def out (h a : (⟨2, ![50000, 96]⟩ : Shape).Idx → EReal) (wt : (⟨2, ![96, 96]⟩ : Shape).Idx → EReal)
    (b : (⟨2, ![1, 96]⟩ : Shape).Idx → EReal) : (⟨2, ![50000, 96]⟩ : Shape).Idx → EReal :=
  fun i => (∑ k : Fin 96, combined h a (i 0) k * wt (ix2 k (i 1))) + b (ix2 (0 : Fin 1) (i 1))

end Cert.NodeUpdate

end
-- ==== Proof.Payload.lean ====
/-
  What the kernel body stores, read at one index of a block.

  The body works on a block of 5000 node rows. From the block `x` of node features, the block `a` of aggregated
  neighbour features, the whole transposed weight matrix `wt` and the bias row `b` it forms `x + a · π₃₂`, multiplies
  that by `wt` on the matrix unit into a zero accumulator, and adds the bias row to every row. On the extended reals
  the change of float format before the product is the identity and the product into zero is the plain sum over the
  contracted axis, so at row `p` and column `q` of the block the stored value is

      Σ_k (x[p, k] + a[p, k] · π₃₂) · wt[k, q]  +  b[0, q].
-/
import proofs.«131941_j81784767250539_2_alg».proof.Proof.Gen.KernelIdeal.Skeleton
import proofs.«131941_j81784767250539_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.NodeUpdate

open Cert.KernelIdeal Cert.KernelIdeal.Gen Cert.KernelIdeal.Facts₀ Idealize.ShloMosaic Idealize.ShloMosaic.ValueIdx

/-- The left operand of the block's product is read along its own row: its row coordinate is the output's. -/
theorem lhs_row (i : S5000x96.Idx) (κ : dot_S5000x96_S96x96_S5000x96_1_0_0_1_n_n.contr.Idx) :
    (dot_S5000x96_S96x96_S5000x96_1_0_0_1_n_n.lhsIdx i κ 0).val = (i 0).val := by
  unfold DotDims.lhsIdx
  rw [dif_neg (show ¬(0 : Fin S5000x96.rank) ∈ dot_S5000x96_S96x96_S5000x96_1_0_0_1_n_n.lhsBatch by decide),
    dif_pos (show (0 : Fin S5000x96.rank) ∈ dot_S5000x96_S96x96_S5000x96_1_0_0_1_n_n.lhsNonContracting by decide)]
  rfl

/-- The right operand is read down the output's column: its column coordinate is the output's. -/
theorem rhs_col (i : S5000x96.Idx) (κ : dot_S5000x96_S96x96_S5000x96_1_0_0_1_n_n.contr.Idx) :
    (dot_S5000x96_S96x96_S5000x96_1_0_0_1_n_n.rhsIdx i κ 1).val = (i 1).val := by
  unfold DotDims.rhsIdx
  rw [dif_neg (show ¬(1 : Fin S96x96.rank) ∈ dot_S5000x96_S96x96_S5000x96_1_0_0_1_n_n.rhsBatch by decide),
    dif_pos (show (1 : Fin S96x96.rank) ∈ dot_S5000x96_S96x96_S5000x96_1_0_0_1_n_n.rhsNonContracting by decide)]
  rfl

/-- The block's matrix product into a zero accumulator, at row `p` and column `q`: the sum over the 96 contracted
    features of the left operand's row entry times the right operand's column entry. -/
theorem blockProduct_apply (l : FVec Ideal S5000x96 .bf16) (r : FVec Ideal S96x96 .bf16) (p : Fin 5000) (q : Fin 96) :
    Idealize.ShloMosaic.matmul dot_S5000x96_S96x96_S5000x96_1_0_0_1_n_n none l r (constant (F := Ideal) S5000x96 .f32 0x00000000#32) (ix2 p q)
      = ∑ k : Fin 96, l (ix2 p k) * r (ix2 k q) := by
  show FloatOps.matmul dot_S5000x96_S96x96_S5000x96_1_0_0_1_n_n none l r (constant (F := Ideal) S5000x96 .f32 0x00000000#32) (ix2 p q) = _
  rw [Ideal.matmul_constant_zero_apply,
    ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q)
      ((contrEquiv1 dot_S5000x96_S96x96_S5000x96_1_0_0_1_n_n 96 rfl rfl).symm k) = ix2 p k :=
    funext fun a => Fin.ext (by
      match a with
      | ⟨0, _⟩ => exact lhs_row _ _
      | ⟨1, _⟩ => exact (dot_S5000x96_S96x96_S5000x96_1_0_0_1_n_n.lhsIdx_val_of_single rfl _ _).trans hk)
  have er : dot_S5000x96_S96x96_S5000x96_1_0_0_1_n_n.rhsIdx (ix2 p q)
      ((contrEquiv1 dot_S5000x96_S96x96_S5000x96_1_0_0_1_n_n 96 rfl rfl).symm k) = ix2 k q :=
    funext fun a => Fin.ext (by
      match a with
      | ⟨0, _⟩ => exact (dot_S5000x96_S96x96_S5000x96_1_0_0_1_n_n.rhsIdx_val_of_single rfl _ _).trans hk
      | ⟨1, _⟩ => exact rhs_col _ _)
  rw [el, er]

/-- What the body stores at row `p`, column `q` of its block, from the blocks it loaded. -/
theorem stored_apply (x a : Vec Ideal S5000x96 .f32) (wt : Vec Ideal S96x96 .bf16) (b : Vec Ideal S1x96 .f32)
    (p : Fin 5000) (q : Fin 96) :
    k0_pay1 (F := Ideal) x a wt b (ix2 p q)
      = (∑ k : Fin 96, (x (ix2 p k) + a (ix2 p k) * pi32) * wt (ix2 k q)) + b (ix2 (0 : Fin 1) q) := by
  unfold k0_pay1
  rw [addf_apply, blockProduct_apply, broadcastTo_1b_ab_apply, shapeCast_self, shapeCast_self, shapeCast_self]
  rfl

end Cert.NodeUpdate

end
-- ==== Proof.BlockValue.lean ====
/-
  One block of the layer's output.

  The body's value at row `p` of its block depends only on row `p` of the two feature blocks. So when those blocks are
  rows `5000·r … 5000·r + 4999` of whole arrays `H` and `A`, and the body holds the whole transposed weights `WT` and the
  whole bias row `B`, what it stores at block index `(p, q)` is the layer's output `NodeUpdate.out H A WT B` at array
  index `(5000·r + p, q)`.
-/
import proofs.«131941_j81784767250539_2_alg».proof.Proof.Payload

noncomputable section

namespace Cert.NodeUpdate

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

/-- The body's stored block, when its two feature blocks are rows `5000·r …` of arrays `H` and `A` and it holds the
    whole of `WT` and `B`, is `out H A WT B` at the array index `i` that block index `y` names. -/
theorem stored_eq_out (H A : S50000x96.Idx → EReal) (WT : S96x96.Idx → EReal) (B : S1x96.Idx → EReal)
    (x a : Vec Ideal S5000x96 .f32) (wt : Vec Ideal S96x96 .bf16) (b : Vec Ideal S1x96 .f32) (r : Nat)
    (hx : ∀ (p : Fin 5000) (k : Fin 96) (i : Fin 50000), i.val = r * 5000 + p.val → x (ix2 p k) = H (ix2 i k))
    (ha : ∀ (p : Fin 5000) (k : Fin 96) (i : Fin 50000), i.val = r * 5000 + p.val → a (ix2 p k) = A (ix2 i k))
    (hwt : wt = WT) (hb : b = B) (y : S5000x96.Idx) (i : S50000x96.Idx)
    (hi0 : (i 0).val = r * 5000 + (y 0).val) (hi1 : (i 1).val = (y 1).val) :
    k0_pay1 (F := Ideal) x a wt b y = out H A WT B i := by
  obtain ⟨p, q, rfl⟩ : ∃ (p : Fin 5000) (q : Fin 96), y = ix2 p q := ⟨y 0, y 1, eq_ix2 y⟩
  obtain ⟨i0, i1, rfl⟩ : ∃ (i0 : Fin 50000) (i1 : Fin 96), i = ix2 i0 i1 := ⟨i 0, i 1, eq_ix2 i⟩
  have e1 : i1 = q := Fin.ext hi1
  subst e1 hwt hb
  rw [stored_apply]
  unfold out combined
  refine congrArg (· + b (ix2 (0 : Fin 1) i1)) (Finset.sum_congr rfl fun k _ => ?_)
  rw [hx p k i0 hi0, ha p k i0 hi0]

end Cert.NodeUpdate

end
-- ==== Proof.BlockIndex.lean ====
/-
  Where the ten blocks sit.

  The pallas_call walks ten grid points. At point `t` the two feature windows and the output window are at block row
  `t`, block column 0 — rows `5000·t … 5000·t + 4999`, all 96 columns — and the weight and bias windows are the whole
  of their arrays. The ten row ranges tile the 50000 rows: row `r` lies in the block of point `r / 5000`.
-/
import proofs.«131941_j81784767250539_2_alg».proof.Proof.Gen.KernelIdeal.Value
import Idealize.ShloMosaic.Lib.ValueIdx

noncomputable section

namespace Cert.NodeUpdate

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

/-- The printed index maps over the ten grid points: the two feature windows and the output window sit at block row
    `t`, block column 0; the weight and bias windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- An index of the output array lies in point `t`'s block iff each coordinate lies in the block's range on its axis. -/
theorem mem_block (t : Fin cfg0.N) (i : S50000x96.Idx) :
    i ∈ ((cfg0.win 4).blk t).view.set ↔ ∀ a : Fin 2, win0_4.index t a * S5000x96.size a ≤ (i a).val
      ∧ (i a).val < win0_4.index t a * S5000x96.size a + S5000x96.size a := by
  show i ∈ ((View.whole main_v13).slice (win0_4.rect t)).set ↔ _
  rw [View.set_slice_whole, Rect.mem_set_unit]
  exact Iff.rfl

/-- Every output index is written back by some point: row `r` by point `r / 5000`. -/
theorem covered (i : S50000x96.Idx) :
    ∃ t : Fin cfg0.N, (cfg0.win 4).flush t = true ∧ i ∈ ((cfg0.win 4).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, by rw [show cfg0.N = 10 from N_0]; omega⟩, rfl⟩
  obtain ⟨e00, e01, e10, e11, e20, e21, e30, e31, e40, e41⟩ := block_indices t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 96 ≤ (i 1).val ∧ (i 1).val < win0_4.index t (1 : Fin 2) * 96 + 96
    omega

end Cert.NodeUpdate

end
-- ==== Proof.PointWrites.lean ====
/-
  What one grid point writes back, over arbitrary arrays.

  Take any arrays `H`, `A` of shape [50000, 96], `WT` of shape [96, 96] and `B` of shape [1, 96]. At grid point `t` the
  body is handed rows `5000·t …` of `H` and of `A` and the whole of `WT` and `B`; what it stores, read through the output
  window, is rows `5000·t …` of the layer's output `NodeUpdate.out H A WT B`. Nothing here looks at where the arrays came
  from.
-/
import proofs.«131941_j81784767250539_2_alg».proof.Proof.BlockValue
import proofs.«131941_j81784767250539_2_alg».proof.Proof.BlockIndex

noncomputable section

namespace Cert.NodeUpdate

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

/-- Rows `5000·t …` of a [50000, 96] array read through the first feature window at point `t`. -/
theorem rows_win0 (t : Fin cfg0.N) (X : S50000x96.Idx → EReal) (p : Fin 5000) (k : Fin 96) (i : Fin 50000)
    (hi : i.val = t.val * 5000 + p.val) :
    ((cfg0.win 0).blk t).view.read (Elt Ideal) X (ix2 p k) = X (ix2 i k) := by
  obtain ⟨e00, e01, e10, e11, e20, e21, e30, e31, e40, e41⟩ := block_indices t
  show X (((cfg0.win 0).blk t).view.emb (ix2 p k)) = X (ix2 i k)
  refine congrArg X (funext fun a => Fin.ext ?_)
  match a with
  | ⟨0, _⟩ => show win0_0.index t (0 : Fin 2) * 5000 + 1 * p.val = i.val; omega
  | ⟨1, _⟩ => show win0_0.index t (1 : Fin 2) * 96 + 1 * k.val = k.val; omega

/-- The same through the second feature window. -/
theorem rows_win1 (t : Fin cfg0.N) (X : S50000x96.Idx → EReal) (p : Fin 5000) (k : Fin 96) (i : Fin 50000)
    (hi : i.val = t.val * 5000 + p.val) :
    ((cfg0.win 1).blk t).view.read (Elt Ideal) X (ix2 p k) = X (ix2 i k) := by
  obtain ⟨e00, e01, e10, e11, e20, e21, e30, e31, e40, e41⟩ := block_indices t
  show X (((cfg0.win 1).blk t).view.emb (ix2 p k)) = X (ix2 i k)
  refine congrArg X (funext fun a => Fin.ext ?_)
  match a with
  | ⟨0, _⟩ => show win0_1.index t (0 : Fin 2) * 5000 + 1 * p.val = i.val; omega
  | ⟨1, _⟩ => show win0_1.index t (1 : Fin 2) * 96 + 1 * k.val = k.val; omega

/-- The weight window's one block is the whole array. -/
theorem whole_win2 (t : Fin cfg0.N) (X : S96x96.Idx → EReal) :
    ((cfg0.win 2).blk t).view.read (Elt Ideal) X = X := by
  obtain ⟨e00, e01, e10, e11, e20, e21, e30, e31, e40, e41⟩ := block_indices t
  funext z
  show X (((cfg0.win 2).blk t).view.emb z) = X z
  refine congrArg X (funext fun a => Fin.ext ?_)
  match a with
  | ⟨0, _⟩ => show win0_2.index t (0 : Fin 2) * 96 + 1 * (z 0).val = (z 0).val; omega
  | ⟨1, _⟩ => show win0_2.index t (1 : Fin 2) * 96 + 1 * (z 1).val = (z 1).val; omega

/-- The bias window's one block is the whole row. -/
theorem whole_win3 (t : Fin cfg0.N) (X : S1x96.Idx → EReal) :
    ((cfg0.win 3).blk t).view.read (Elt Ideal) X = X := by
  obtain ⟨e00, e01, e10, e11, e20, e21, e30, e31, e40, e41⟩ := block_indices t
  funext z
  show X (((cfg0.win 3).blk t).view.emb z) = X z
  refine congrArg X (funext fun a => Fin.ext ?_)
  match a with
  | ⟨0, _⟩ => show win0_3.index t (0 : Fin 2) * 1 + 1 * (z 0).val = (z 0).val; omega
  | ⟨1, _⟩ => show win0_3.index t (1 : Fin 2) * 96 + 1 * (z 1).val = (z 1).val; omega

/-- What the body stores at point `t` from the blocks of `H`, `A`, `WT`, `B`, read through the output window, is block `t`
    of the layer's output of those arrays. -/
theorem point_writes (t : Fin cfg0.N) (H A : S50000x96.Idx → EReal) (WT : S96x96.Idx → EReal) (B : S1x96.Idx → EReal) :
    (cfg0.win 4).cut (grid0.coords t) (k0_pay1 (F := Ideal)
        (((cfg0.win 0).blk t).view.read (Elt Ideal) H) (((cfg0.win 1).blk t).view.read (Elt Ideal) A)
        (((cfg0.win 2).blk t).view.read (Elt Ideal) WT) (((cfg0.win 3).blk t).view.read (Elt Ideal) B))
      = ((cfg0.win 4).blk t).view.read (Elt Ideal) (out H A WT B) := by
  obtain ⟨e00, e01, e10, e11, e20, e21, e30, e31, e40, e41⟩ := block_indices t
  funext y
  show k0_pay1 (F := Ideal)
        (((cfg0.win 0).blk t).view.read (Elt Ideal) H) (((cfg0.win 1).blk t).view.read (Elt Ideal) A)
        (((cfg0.win 2).blk t).view.read (Elt Ideal) WT) (((cfg0.win 3).blk t).view.read (Elt Ideal) B) y
      = out H A WT B (((cfg0.win 4).blk t).view.emb y)
  refine stored_eq_out H A WT B
    (((cfg0.win 0).blk t).view.read (Elt Ideal) H) (((cfg0.win 1).blk t).view.read (Elt Ideal) A)
    (((cfg0.win 2).blk t).view.read (Elt Ideal) WT) (((cfg0.win 3).blk t).view.read (Elt Ideal) B) t.val
    (rows_win0 t H) (rows_win1 t A) (whole_win2 t WT) (whole_win3 t B) y (((cfg0.win 4).blk t).view.emb y) ?_ ?_
  · show win0_4.index t (0 : Fin 2) * 5000 + 1 * (y 0).val = t.val * 5000 + (y 0).val; omega
  · show win0_4.index t (1 : Fin 2) * 96 + 1 * (y 1).val = (y 1).val; omega

end Cert.NodeUpdate

end
-- ==== Proof.Blocks.lean ====
/-
  From blocks to the whole array.

  At each of the ten grid points the pipeline hands the body the point's blocks of the four arrays the region found, and
  writes the body's result back to the point's rows of the output. By `point_writes` that result is the point's rows of
  the layer's output of those four arrays, whatever they are; the ten blocks tile the output (`covered`), so the output
  array ends holding the layer's output of the four arrays as the region found them.
-/
import proofs.«131941_j81784767250539_2_alg».proof.Proof.PointWrites

noncomputable section

namespace Cert.NodeUpdate

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- What point `t` writes back is block `t` of the layer's output of the arrays as the region finds them. -/
theorem flushed_eq (c : Dev nD) (t : Fin cfg0.N) :
    (dats m 0 c).flushed 4 t = ((cfg0.win 4).blk t).view.read (Elt Ideal)
      (out (V m c (Pipeline.arrRef spec0 0)) (V m c (Pipeline.arrRef spec0 1))
        (V m c (Pipeline.arrRef spec0 2)) (V m c (Pipeline.arrRef spec0 3))) := by
  rw [Cert.KernelIdeal.Value.flushed4]
  unfold out0_4
  rw [View.canon_unit_zero zero_offsets]
  simp only [View.ld_unit_zero (S := S5000x96) zero_offsets, View.ld_unit_zero (S := S96x96) zero_offsets,
    View.ld_unit_zero (S := S1x96) zero_offsets]
  unfold iblk
  generalize V m c (Pipeline.arrRef spec0 0) = H
  generalize V m c (Pipeline.arrRef spec0 1) = A
  generalize V m c (Pipeline.arrRef spec0 2) = WT
  generalize V m c (Pipeline.arrRef spec0 3) = B
  exact point_writes t H A WT B

/-- The output array after the run is the layer's output of the four arrays the region found. -/
theorem final (c : Dev nD) :
    (dats m 0 c).arrAt 4 cfg0.N = out (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed_eq m c t) covered

end Cert.NodeUpdate

end
-- ==== Proof.HostPrefix.lean ====
/-
  What @main computes before the pallas_call.

  Three of the four arrays the region finds are written by host operations of @main first.
  • The aggregated neighbour features (`mailbox`): every edge's source index, wrapped by +50000 when negative, gathers a
    row of the node features; the gathered rows are scatter-added into a zero array at the edges' destination rows.
    The reference computes the very same term, so it is kept as one opaque function of the node features and the two
    index arrays and is never opened.
  • The weights: the transpose of `W`, then a change of float format, which is the identity on the extended reals.
  • The bias: the vector reshaped to one row.
  The node features themselves reach the region untouched.
-/
import proofs.«131941_j81784767250539_2_alg».proof.Proof.Gen.KernelIdeal.Value
import proofs.«131941_j81784767250539_2_alg».proof.Proof.Spec
import Idealize.ShloMosaic.Lib.StableHlo.Run
import Idealize.ShloMosaic.Lib.ValueLayout

noncomputable section

namespace Cert.NodeUpdate

open Cert.KernelIdeal Cert.KernelIdeal.Gen Idealize.ShloMosaic Idealize.ShloMosaic.TcCoe
open Idealize.SL.Sem Idealize.ShloMosaic.ValueIdx
open Idealize.ShloMosaic.Pipeline (Dat)
open Idealize.ShloMosaic.StableHlo

variable (m : (ℓ : Loc nD τ sig) → Buf (Elt Ideal) ℓ)

/-- The aggregated neighbour features as a function of the node features and the edges' source and destination
    indices: gather the source rows (a negative index counted from the end), scatter-add them by destination into zeros. -/
def mailbox (h : S50000x96.Idx → EReal) (src dst : S800000.Idx → BitVec 32) : S50000x96.Idx → EReal :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The region finds the aggregated neighbour features of @main's arguments in its second window's array. -/
theorem found_mailbox (c : Dev nD) :
    (V m c (Pipeline.arrRef spec0 1) : S50000x96.Idx → EReal)
      = mailbox (m ((c : Thread nD τ).loc main_arg0)) (m ((c : Thread nD τ).loc main_arg1)) (m ((c : Thread nD τ).loc main_arg2)) := by
  show (V m c main_v9 : S50000x96.Idx → EReal) = _
  unfold mailbox
  dsimp only [Gen.V, Gen.hostOps0]
  after_results <;> rfl

/-- The region finds the transposed weights in its third window's array. -/
theorem found_weights (c : Dev nD) :
    (V m c (Pipeline.arrRef spec0 2) : S96x96.Idx → EReal) = transposed (m ((c : Thread nD τ).loc main_arg3)) := by
  have e : @Eq (S96x96.Idx → EReal) (V m c main_v11)
      (truncf (F := Ideal) .bf16 (transpose S96x96 [1, 0] (m ((c : Thread nD τ).loc main_arg3) : S96x96.Idx → EReal)
        transposes_S96x96_S96x96_1_0) bitsLt_bf16_f32) := by
    dsimp only [Gen.V, Gen.hostOps0]
    after_results <;> rfl
  show (V m c main_v11 : S96x96.Idx → EReal) = _
  rw [e]
  funext z
  obtain ⟨k, j, rfl⟩ : ∃ (k j : Fin 96), z = ix2 k j := ⟨z 0, z 1, eq_ix2 z⟩
  rw [truncf_apply, transpose_ix2_apply]
  rfl

/-- The region finds the bias, as one row, in its fourth window's array. -/
theorem found_bias (c : Dev nD) :
    (V m c (Pipeline.arrRef spec0 3) : S1x96.Idx → EReal) = biasRow (m ((c : Thread nD τ).loc main_arg4)) := by
  have e : @Eq (S1x96.Idx → EReal) (V m c main_v12)
      (shapeCast S1x96 (m ((c : Thread nD τ).loc main_arg4) : S96.Idx → EReal) shapeCasts_S96_S1x96) := by
    dsimp only [Gen.V, Gen.hostOps0]
    after_results <;> rfl
  show (V m c main_v12 : S1x96.Idx → EReal) = _
  rw [e]
  funext z
  obtain ⟨u, q, rfl⟩ : ∃ (u : Fin 1) (q : Fin 96), z = ix2 u q := ⟨z 0, z 1, eq_ix2 z⟩
  rw [shapeCast_a_1a_apply]
  rfl

/-- The region finds the node features as launched. -/
theorem found_features (c : Dev nD) :
    (V m c (Pipeline.arrRef spec0 0) : S50000x96.Idx → EReal) = m ((c : Thread nD τ).loc main_arg0) :=
  V_main_arg0 m c

end Cert.NodeUpdate

end
-- ==== Proof.KernelRun.lean ====
/-
  The kernel's run on the extended reals.

  Every weakly fair execution of the kernel's @main, read on the extended reals, terminates without a fault; the result array ends holding the
  layer's output of the node features, their aggregated neighbour features, the transposed weights and the bias row —
  all as functions of @main's five arguments — and the arguments end unchanged.
-/
import proofs.«131941_j81784767250539_2_alg».proof.Proof.Blocks
import proofs.«131941_j81784767250539_2_alg».proof.Proof.HostPrefix

noncomputable section

namespace Cert.NodeUpdate

open Cert.KernelIdeal Cert.KernelIdeal.Gen Cert.KernelIdeal.Facts₀ Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The result array after the run, as a function of the arguments at launch. -/
theorem result_eq (c : Dev nD) :
    (dats m 0 c).arrAt 4 cfg0.N
      = out (m ((c : Thread nD τ).loc main_arg0))
          (mailbox (m ((c : Thread nD τ).loc main_arg0)) (m ((c : Thread nD τ).loc main_arg1)) (m ((c : Thread nD τ).loc main_arg2)))
          (transposed (m ((c : Thread nD τ).loc main_arg3))) (biasRow (m ((c : Thread nD τ).loc main_arg4))) := by
  rw [final m c, found_features m c, found_mailbox m c, found_weights m c, found_bias m c]

/-- The kernel's run on the extended reals, with its result named. -/
theorem kernel_run : θ_run defs (onTc (τ := τ) (main (F := Ideal))) ⟨m, fun _ => 0, ρ⟩ fun r => ∀ c : Dev nD,
      r.2.mem ((c : Thread nD τ).loc main_v13)
        = out (m ((c : Thread nD τ).loc main_arg0))
            (mailbox (m ((c : Thread nD τ).loc main_arg0)) (m ((c : Thread nD τ).loc main_arg1)) (m ((c : Thread nD τ).loc main_arg2)))
            (transposed (m ((c : Thread nD τ).loc main_arg3))) (biasRow (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.NodeUpdate

end
-- ==== Proof.RefRead.lean ====
/-
  The reference, read index by index.

  The reference forms the aggregated neighbour features `a` by the same gather and scatter-add, then
  `(h + π₃₂ · a) · Wᵀ + b` with one whole matrix product on the host. Read at node `i` and output feature `j` this is

      Σ_k (h[i, k] + π₃₂ · a[i, k]) · W[j, k]  +  b[j],

  which differs from the layer's output `NodeUpdate.out h a (transposed W) (biasRow b)` only in the order of the two
  factors `π₃₂` and `a[i, k]`: commutativity of the product on the extended reals.
-/
import proofs.«131941_j81784767250539_2_alg».proof.Proof.Gen.ReferenceIdeal.Read
import proofs.«131941_j81784767250539_2_alg».proof.Proof.Spec

noncomputable section

namespace Cert.NodeUpdate

open Cert.ReferenceIdeal Cert.ReferenceIdeal.Gen Cert.ReferenceIdeal.Read Idealize.ShloMosaic Idealize.ShloMosaic.ValueIdx

/-- The reference's result, as a function of its five arguments, is the layer's output of the node features, the
    aggregated neighbour features as the reference computes them, the transposed weights and the bias row. -/
theorem reference_eq (h : S50000x96.Idx → EReal) (src dst : S800000.Idx → BitVec 32) (W : S96x96.Idx → EReal)
    (b : S96.Idx → EReal) :
    val_main_v17 (F := Ideal) h src dst W b
      = out h (val_main_v9 (F := Ideal) h src dst) (transposed W) (biasRow b) := by
  funext i
  obtain ⟨i0, i1, rfl⟩ : ∃ (i0 : Fin 50000) (i1 : Fin 96), i = ix2 i0 i1 := ⟨i 0, i 1, eq_ix2 i⟩
  rw [val_main_v17_apply, val_main_v14_apply, val_main_v16_apply, val_main_v15_apply]
  unfold out combined transposed biasRow
  rw [Ideal.addf_def]
  refine congrArg₂ (· + ·) (Finset.sum_congr rfl fun k _ => ?_) ?_
  · have el : lidx_main_v14 (ix2 i0 i1) k = ix2 i0 k :=
      funext fun a => Fin.ext (by match a with | ⟨0, _⟩ => rfl | ⟨1, _⟩ => rfl)
    have er : idx_main_v13 (ridx_main_v14 (ix2 i0 i1) k) = ix2 i1 k :=
      funext fun a => Fin.ext (by match a with | ⟨0, _⟩ => rfl | ⟨1, _⟩ => rfl)
    rw [val_main_v12_apply, val_main_v11_apply, val_main_v10_apply, val_main_cst_1_apply, val_main_v13_apply, el, er,
      Ideal.addf_def, Ideal.mulf_def, Ideal.ofBits_def, mul_comm (Ideal.ofBits .f32 0x40490FDB#32)]
    rfl
  · exact congrArg b (funext fun a => Fin.ext (by match a with | ⟨0, _⟩ => rfl))

end Cert.NodeUpdate

end
-- ==== Proof.SameMailbox.lean ====
/-
  Both programs aggregate the neighbour features by the same term.

  The kernel's @main and the reference spell the aggregation with the same operations in the same order — wrap a
  negative source index, gather the source rows, scatter-add them by destination into zeros — over the same shapes and
  dimension numbers. So the kernel's `mailbox` and the reference's stage for that buffer are one function of the node
  features and the two index arrays, by unfolding the names; the gather and the scatter-add are never opened.
-/
import proofs.«131941_j81784767250539_2_alg».proof.Proof.HostPrefix
import proofs.«131941_j81784767250539_2_alg».proof.Proof.RefRead

noncomputable section

namespace Cert.NodeUpdate

open Idealize.ShloMosaic

theorem mailbox_eq (h : Cert.KernelIdeal.S50000x96.Idx → EReal) (src dst : Cert.KernelIdeal.S800000.Idx → BitVec 32) :
    mailbox h src dst = Cert.ReferenceIdeal.Read.val_main_v9 (F := Ideal) h src dst := by
  unfold mailbox Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

end Cert.NodeUpdate

end
-- ==== Proof.lean ====
/-
  One message-passing layer of a graph network: the kernel against its reference.

  Both programs take node features `h : [50000, 96]`, the source and destination node of each of 800000 edges, a weight
  matrix `W : [96, 96]` and a bias `b : [96]`. Both first aggregate, for every node, the feature rows of the sources of
  its incoming edges (`a`, a gather followed by a scatter-add into zeros) — by literally the same host operations — and
  then compute the node update

      out[i, j] = Σ_k (h[i, k] + π₃₂ · a[i, k]) · W[j, k] + b[j],        π₃₂ the single-precision number nearest to π.

  The reference does so with one whole matrix product on the host. The kernel does so in a pallas_call over ten blocks of
  5000 node rows: on each block it forms `h + a · π₃₂`, multiplies by the transposed weights on the matrix unit (after a
  change of float format that is the identity on the extended reals) into a zero accumulator, and adds the bias row.

  On the extended reals the two results are equal entry by entry. The kernel's side: what the body stores at an index of
  a block (Proof/Payload.lean) is the layer's output there (Proof/BlockValue.lean); the blocks sit at rows `5000·t …`
  and tile the output (Proof/BlockIndex.lean), so each point writes its rows of the layer's output
  (Proof/PointWrites.lean) and the output array ends holding it (Proof/Blocks.lean) — of the arrays the host operations
  before the call produce (Proof/HostPrefix.lean), which gives the kernel's run (Proof/KernelRun.lean). The reference's
  side: its result read index by index (Proof/RefRead.lean). The two aggregated-feature terms are one function
  (Proof/SameMailbox.lean), and the only algebra between the two sides is `a · π₃₂ = π₃₂ · a`. No entry needs to be finite,
  so the precondition is never opened. The kernel's idealization rewrote nothing, so there is nothing to preserve.
-/
import proofs.«131941_j81784767250539_2_alg».proof.Defs
import proofs.«131941_j81784767250539_2_alg».proof.Proof.Gen.Kernel
import proofs.«131941_j81784767250539_2_alg».proof.Proof.Gen.Kernel.Skeleton
import proofs.«131941_j81784767250539_2_alg».proof.Proof.Gen.Kernel.Launch
import proofs.«131941_j81784767250539_2_alg».proof.Proof.Gen.Kernel.Points
import proofs.«131941_j81784767250539_2_alg».proof.Proof.Gen.Kernel.Frame
import proofs.«131941_j81784767250539_2_alg».proof.Proof.Gen.KernelIdeal
import proofs.«131941_j81784767250539_2_alg».proof.Proof.Gen.KernelIdeal.Skeleton
import proofs.«131941_j81784767250539_2_alg».proof.Proof.Gen.KernelIdeal.Launch
import proofs.«131941_j81784767250539_2_alg».proof.Proof.Gen.KernelIdeal.Points
import proofs.«131941_j81784767250539_2_alg».proof.Proof.Gen.KernelIdeal.Frame
import proofs.«131941_j81784767250539_2_alg».proof.Proof.Gen.ReferenceIdeal
import proofs.«131941_j81784767250539_2_alg».proof.Proof.Gen.Pre_finite_inputs
import proofs.«131941_j81784767250539_2_alg».proof.Proof.Gen.KernelIdeal.Value
import proofs.«131941_j81784767250539_2_alg».proof.Proof.Gen.ReferenceIdeal.Run
import proofs.«131941_j81784767250539_2_alg».proof.Proof.Gen.ReferenceIdeal.Read
import proofs.«131941_j81784767250539_2_alg».proof.Proof.KernelRun
import proofs.«131941_j81784767250539_2_alg».proof.Proof.SameMailbox
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the five arguments, both programs end with the layer's output of the same node
    features, the same aggregated neighbour features, the same transposed weights and the same bias row. -/
theorem algebraic : Cert.algebraic_KernelIdeal_ReferenceIdeal := by
  intro m ρ m' ρ' _ hagree
  refine ⟨_, Cert.NodeUpdate.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.NodeUpdate.reference_eq, (hagree c).1, (hagree c).2.1,
    (hagree c).2.2.1, (hagree c).2.2.2.1, (hagree c).2.2.2.2, ← Cert.NodeUpdate.mailbox_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
